-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S2048x256 : Shape := ⟨2, ![2048, 256]⟩
abbrev S1x2048 : Shape := ⟨2, ![1, 2048]⟩
abbrev S64x2304 : Shape := ⟨2, ![64, 2304]⟩
abbrev S64 : Shape := ⟨1, ![64]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S1x2048 : S_.BroadcastsInDim S1x2048 (![] : Fin 0 → Fin S1x2048.rank)
  reducesTo_S1x2048_S_d0_1 : S1x2048.ReducesTo [0, 1] S_
  bcast_S_S64x2304 : S_.BroadcastsInDim S64x2304 (![] : Fin 0 → Fin S64x2304.rank)
  reducesTo_S64x2304_S_d0_1 : S64x2304.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x2304 1) : IVec S_ 1 :=
  let main_c_5 : IVec S_ 1 := constantI S_ 1 1#1
  let main_v17 : IVec S_ 1 := (fun x v => Host.reduce IntOp.andi x v reducesTo_S64x2304_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S16384x256 .f32) (main_arg1 : FVec F S2048x256 .f32) (main_arg2 : FVec F S1x2048 .f32) (main_arg3 : FVec F S64x2304 .f32) (main_arg4 : FVec F S64 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S64x2304 .f32 := Host.absf main_arg3
  let main_cst_4 : FVec F S_ .f32 := constant S_ .f32 0x7F800000#32
  let main_v15 : FVec F S64x2304 .f32 := broadcastInDim S64x2304 ![] bcast_S_S64x2304 main_cst_4
  let main_v16 : IVec S64x2304 1 := cmpf .olt main_v14 main_v15
  fn_part1 (F := F) main_arg4 main_v13 main_v16
-- ==== Kernel.lean ====
abbrev S16384x256 : Shape := ⟨2, ![16384, 256]⟩
abbrev S2048x256 : Shape := ⟨2, ![2048, 256]⟩
abbrev S1x2048 : Shape := ⟨2, ![1, 2048]⟩
abbrev S64x2304 : Shape := ⟨2, ![64, 2304]⟩
abbrev S64 : Shape := ⟨1, ![64]⟩
abbrev S256x2048 : Shape := ⟨2, ![256, 2048]⟩
abbrev S_ : Shape := ⟨0, ![]⟩
abbrev S2048 : Shape := ⟨1, ![2048]⟩
abbrev S64x256 : Shape := ⟨2, ![64, 256]⟩
abbrev S256x64 : Shape := ⟨2, ![256, 64]⟩
abbrev S64x2048 : Shape := ⟨2, ![64, 2048]⟩
abbrev S2048x64 : Shape := ⟨2, ![2048, 64]⟩
abbrev S256x128 : Shape := ⟨2, ![256, 128]⟩
abbrev S2048x128 : Shape := ⟨2, ![2048, 128]⟩
abbrev S128 : Shape := ⟨1, ![128]⟩
abbrev S1x128 : Shape := ⟨2, ![1, 128]⟩
abbrev S16384x128 : Shape := ⟨2, ![16384, 128]⟩
abbrev S256x512 : Shape := ⟨2, ![256, 512]⟩
abbrev S1x512 : Shape := ⟨2, ![1, 512]⟩
abbrev S512x128 : Shape := ⟨2, ![512, 128]⟩
abbrev S2048x512 : Shape := ⟨2, ![2048, 512]⟩
abbrev S2048x1 : Shape := ⟨2, ![2048, 1]⟩
abbrev S16384x64 : Shape := ⟨2, ![16384, 64]⟩

abbrev nBuf : Space → Nat
  | .hbm => 26
  | .vmem => 15
  | .smem => 0
  | _ => 0

abbrev bufTy : (tb : Table) → Fin (tcTables nBuf tb) → BufTy
  | .hbm, ⟨0, _⟩ => ⟨S16384x256, .f32⟩
  | .hbm, ⟨1, _⟩ => ⟨S2048x256, .f32⟩
  | .hbm, ⟨2, _⟩ => ⟨S1x2048, .f32⟩
  | .hbm, ⟨3, _⟩ => ⟨S64x2304, .f32⟩
  | .hbm, ⟨4, _⟩ => ⟨S64, .f32⟩
  | .hbm, ⟨5, _⟩ => ⟨S256x2048, .f32⟩
  | .hbm, ⟨6, _⟩ => ⟨S2048x256, .f32⟩
  | .hbm, ⟨7, _⟩ => ⟨S_, .f32⟩
  | .hbm, ⟨8, _⟩ => ⟨S2048, .f32⟩
  | .hbm, ⟨9, _⟩ => ⟨S1x2048, .f32⟩
  | .hbm, ⟨10, _⟩ => ⟨S64x256, .f32⟩
  | .hbm, ⟨11, _⟩ => ⟨S256x64, .f32⟩
  | .hbm, ⟨12, _⟩ => ⟨S64x2048, .f32⟩
  | .hbm, ⟨13, _⟩ => ⟨S2048x64, .f32⟩
  | .hbm, ⟨14, _⟩ => ⟨S_, .i32⟩
  | .hbm, ⟨15, _⟩ => ⟨S_, .f32⟩
  | .hbm, ⟨16, _⟩ => ⟨S256x128, .f32⟩
  | .hbm, ⟨17, _⟩ => ⟨S_, .i32⟩
  | .hbm, ⟨18, _⟩ => ⟨S_, .f32⟩
  | .hbm, ⟨19, _⟩ => ⟨S2048x128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S16384x128, .f32⟩
  | .hbm, ⟨25, _⟩ => ⟨S16384x64, .f32⟩
  | .local _ .vmem, ⟨0, _⟩ => ⟨S2048x256, .f32⟩
  | .local _ .vmem, ⟨1, _⟩ => ⟨S2048x256, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S256x128, .f32⟩
  | .local _ .vmem, ⟨9, _⟩ => ⟨S512x128, .f32⟩
  | .local _ .vmem, ⟨10, _⟩ => ⟨S512x128, .f32⟩
  | .local _ .vmem, ⟨11, _⟩ => ⟨S1x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_c_0 : Ref sig .tc := ⟨.hbm, 17, rfl⟩
abbrev main_call1_v0 : Ref sig .tc := ⟨.hbm, 18, rfl⟩
abbrev main_v9 : Ref sig .tc := ⟨.hbm, 19, rfl⟩
abbrev main_c_1 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  transposes_S2048x256_S256x2048_1_0 : S2048x256.Transposes [1, 0] S256x2048
  reducesTo_S2048x256_S2048_d1 : S2048x256.ReducesTo [1] S2048
  h_S_ : 0 < S_.numel
  bcast_S2048_S1x2048_1 : S2048.BroadcastsInDim S1x2048 (![1] : Fin 1 → Fin S1x2048.rank)
  slices_S64x2304_S64x256_0_0 : S64x2304.Slices ![0, 0] S64x256
  transposes_S64x256_S256x64_1_0 : S64x256.Transposes [1, 0] S256x64
  slices_S64x2304_S64x2048_0_256 : S64x2304.Slices ![0, 256] S64x2048
  transposes_S64x2048_S2048x64_1_0 : S64x2048.Transposes [1, 0] S2048x64
  pads_S256x64_S256x128_000_0640 : S256x64.Pads (![0, 0] : Fin 2 → Nat) ![0, 64] ![0, 0] S256x128
  pads_S2048x64_S2048x128_000_0640 : S2048x64.Pads (![0, 0] : Fin 2 → Nat) ![0, 64] ![0, 0] S2048x128
  pads_S64_S128_0640 : S64.Pads (![0] : Fin 1 → Nat) ![64] ![0] S128
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S2048x256_S2048 : S2048x256.Reduces [1] S2048
  shapeCasts_S2048_S2048x1 : S2048.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S16384x128_S16384x64_0_0 : S16384x128.Slices ![0, 0] S16384x64
  dot_S2048x256_S256x512_S2048x512_1_0_0_1_n_n_wf : DotDims.WF S2048x256 S256x512 S2048x512 [1] [0] [0] [1] [] []
  dot_S2048x512_S512x128_S2048x128_1_0_0_1_n_n_wf : DotDims.WF S2048x512 S512x128 S2048x128 [1] [0] [0] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x2048.size a
  hwx0_1 : ∀ i : grid0.Coords, EltTy.bits .f32 = 32 ∨ (Rect.block (s := S256x2048) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S2048x128.size a
  hwx0_5 : ∀ i : grid0.Coords, EltTy.bits .f32 = 32 ∨ (Rect.block (s := S2048x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S16384x128.size a
  hwx0_7 : ∀ i : grid0.Coords, EltTy.bits .f32 = 32 ∨ (Rect.block (s := S16384x128) S2048x128.size (cc0_transform_7 i) (hinb0_7 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16384x256 : Shape := ⟨2, ![16384, 256]⟩
abbrev S2048x256 : Shape := ⟨2, ![2048, 256]⟩
abbrev S1x2048 : Shape := ⟨2, ![1, 2048]⟩
abbrev S64x2304 : Shape := ⟨2, ![64, 2304]⟩
abbrev S64 : Shape := ⟨1, ![64]⟩
abbrev S_ : Shape := ⟨0, ![]⟩
abbrev S16384 : Shape := ⟨1, ![16384]⟩
abbrev S16384x1 : Shape := ⟨2, ![16384, 1]⟩
abbrev S2048 : Shape := ⟨1, ![2048]⟩
abbrev S256x2048 : Shape := ⟨2, ![256, 2048]⟩
abbrev S16384x2048 : Shape := ⟨2, ![16384, 2048]⟩
abbrev S16384x2304 : Shape := ⟨2, ![16384, 2304]⟩
abbrev S2304x64 : Shape := ⟨2, ![2304, 64]⟩
abbrev S16384x64 : Shape := ⟨2, ![16384, 64]⟩
abbrev S1x64 : Shape := ⟨2, ![1, 64]⟩

abbrev nBuf : Space → Nat
  | .hbm => 32
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S2048x256, .f32⟩
  | .hbm, ⟨2, _⟩ => ⟨S1x2048, .f32⟩
  | .hbm, ⟨3, _⟩ => ⟨S64x2304, .f32⟩
  | .hbm, ⟨4, _⟩ => ⟨S64, .f32⟩
  | .hbm, ⟨5, _⟩ => ⟨S16384x256, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S2048x256, .f32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S256x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2304, .f32⟩
  | .hbm, ⟨27, _⟩ => ⟨S2304x64, .f32⟩
  | .hbm, ⟨28, _⟩ => ⟨S16384x64, .f32⟩
  | .hbm, ⟨29, _⟩ => ⟨S1x64, .f32⟩
  | .hbm, ⟨30, _⟩ => ⟨S16384x64, .f32⟩
  | .hbm, ⟨31, _⟩ => ⟨S16384x64, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S2048x256_S2048_d1 : S2048x256.ReducesTo [1] S2048
  bcast_S2048_S1x2048_1 : S2048.BroadcastsInDim S1x2048 (![1] : Fin 1 → Fin S1x2048.rank)
  transposes_S2048x256_S256x2048_1_0 : S2048x256.Transposes [1, 0] S256x2048
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  concatenates_S16384x256_S16384x2048_S16384x2304_d1 : Shape.Concatenates [S16384x256, S16384x2048] S16384x2304 1
  transposes_S64x2304_S2304x64_1_0 : S64x2304.Transposes [1, 0] S2304x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  dot_S16384x256_S256x2048_S16384x2048_1_0_0_1_n_n_wf : DotDims.WF S16384x256 S256x2048 S16384x2048 [1] [0] [0] [1] [] []
  dot_S16384x2304_S2304x64_S16384x64_1_0_0_1_n_n_wf : DotDims.WF S16384x2304 S2304x64 S16384x64 [1] [0] [0] [1] [] []

variable [Facts₀]

def dot_S16384x256_S256x2048_S16384x2048_1_0_0_1_n_n : DotDims S16384x256 S256x2048 S16384x2048 where
  lhsContracting := [1]
  rhsContracting := [0]
  lhsNonContracting := [0]
  rhsNonContracting := [1]
  lhsBatch := []
  rhsBatch := []
  wf := dot_S16384x256_S256x2048_S16384x2048_1_0_0_1_n_n_wf
def dot_S16384x2304_S2304x64_S16384x64_1_0_0_1_n_n : DotDims S16384x2304 S2304x64 S16384x64 where
  lhsContracting := [1]
  rhsContracting := [0]
  lhsNonContracting := [0]
  rhsNonContracting := [1]
  lhsBatch := []
  rhsBatch := []
  wf := dot_S16384x2304_S2304x64_S16384x64_1_0_0_1_n_n_wf

class Facts : Prop extends Facts₀ where

variable [Facts]
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.Spec.lean ====
/-
  A radial-basis layer followed by a dense layer, on the extended reals.

  For a batch `X` (rows `n`), centres `C` (rows `k`), widths `β`, a weight matrix `W` over the joined
  features `[X | Φ]` and a bias `b`, the radial feature is
  `Φ(n, k) = exp (-β k · ((‖X n‖² + ‖C k‖²) - 2 · ⟨X n, C k⟩))` and the output is
  `out(n, o) = (∑ d, X(n, d) · W(o, d) + ∑ k, Φ(n, k) · W(o, 256 + k)) + b o`  (`refOut`).

  The tiled arrangement (`kerOut`) is stated over the seven arrays a tiled computation is handed: the batch, the
  centres transposed, the row of squared centre norms, the widths, and the two halves of `W` transposed and the bias,
  the last three padded from 64 to 128 lanes. It sums the radial part in four chunks of 512 centres, adds the linear
  part and the bias afterwards, and negates the width as `0 - β`. On the first 64 lanes the two arrangements agree
  (`kerOut_eq_refOut`): the four chunks re-index the sum over the 2048 centres, the joined sum over 2304 features is
  the sum of its two parts, and addition of extended reals is commutative and associative; no finiteness is used.
-/
import Idealize.ShloMosaic.PureOps.Ideal
import Idealize.ShloMosaic.Lib.ValueIdx
import proofs.«167581_j16819091931602_2_alg».proof.Proof.LibDense

noncomputable section

open scoped BigOperators

namespace Cert.Rbf

open Idealize.ShloMosaic Idealize.ShloMosaic.ValueIdx Cert.Dense

/-- The literal `2.0`, kept as its word: both arrangements multiply by the same one. -/
abbrev two : EReal := Ideal.ofBits .f32 0x40000000#32

/-- The squared norm of row `p`. -/
def sqn {M K : ℕ} (A : Mat M K) (p : Fin M) : EReal := ∑ d : Fin K, A (ix2 p d) * A (ix2 p d)

/-- One radial value from the negated width, the two squared norms and the inner product. -/
def rbf (nb xs cs cr : EReal) : EReal := Ideal.exp (nb * ((xs + cs) - two * cr))

/-- Feature `d` of the batch part among the 2304 joined features. -/
def lo (d : Fin 256) : Fin 2304 := ⟨d.val, by omega⟩
/-- Feature `k` of the radial part among the 2304 joined features. -/
def hi (k : Fin 2048) : Fin 2304 := ⟨256 + k.val, by omega⟩
/-- Output `o` among the 128 padded lanes. -/
def lane (o : Fin 64) : Fin 128 := ⟨o.val, by omega⟩
/-- Centre `k` of chunk `j`. -/
def ctr (j : Fin 4) (k : Fin 512) : Fin 2048 := ⟨512 * j.val + k.val, by omega⟩

/-- The radial feature `Φ(n, k)`. -/
def radial (X : Mat 16384 256) (C : Mat 2048 256) (β : Mat 1 2048) (n : Fin 16384) (k : Fin 2048) : EReal :=
  rbf (-(β (ix2 (0 : Fin 1) k))) (sqn X n) (sqn C k) (∑ d : Fin 256, X (ix2 n d) * C (ix2 k d))

/-- The layer's output: the joined features times `Wᵀ`, plus the bias. -/
def refOut (X : Mat 16384 256) (C : Mat 2048 256) (β : Mat 1 2048) (W : Mat 64 2304) (b : Row 64) : Mat 16384 64 :=
  fun i => ((∑ d : Fin 256, X (ix2 (c0 i) d) * W (ix2 (c1 i) (lo d)))
      + ∑ k : Fin 2048, radial X C β (c0 i) k * W (ix2 (c1 i) (hi k))) + b (ix1 (c1 i))

theorem refOut_apply (X : Mat 16384 256) (C : Mat 2048 256) (β : Mat 1 2048) (W : Mat 64 2304) (b : Row 64)
    (n : Fin 16384) (o : Fin 64) :
    refOut X C β W b (ix2 n o) = ((∑ d : Fin 256, X (ix2 n d) * W (ix2 o (lo d)))
      + ∑ k : Fin 2048, radial X C β n k * W (ix2 o (hi k))) + b (ix1 o) := rfl

/-- The radial feature as the tiled arrangement computes it, from the transposed centres `A1`, the row of squared
    centre norms `A2` and the widths `A3`. -/
def kRadial (A0 : Mat 16384 256) (A1 : Mat 256 2048) (A2 A3 : Mat 1 2048) (n : Fin 16384) (k : Fin 2048) : EReal :=
  rbf (0 - A3 (ix2 (0 : Fin 1) k)) (sqn A0 n) (A2 (ix2 (0 : Fin 1) k)) (∑ d : Fin 256, A0 (ix2 n d) * A1 (ix2 d k))

/-- The tiled arrangement's output over the seven arrays it is handed. -/
def kerOut (A0 : Mat 16384 256) (A1 : Mat 256 2048) (A2 A3 : Mat 1 2048) (A4 : Mat 256 128) (A5 : Mat 2048 128)
    (A6 : Mat 1 128) : Mat 16384 128 :=
  fun i => ((∑ j : Fin 4, ∑ k : Fin 512, kRadial A0 A1 A2 A3 (c0 i) (ctr j k) * A5 (ix2 (ctr j k) (c1 i)))
      + ∑ d : Fin 256, A0 (ix2 (c0 i) d) * A4 (ix2 d (c1 i))) + A6 (ix2 (0 : Fin 1) (c1 i))

theorem kerOut_apply (A0 : Mat 16384 256) (A1 : Mat 256 2048) (A2 A3 : Mat 1 2048) (A4 : Mat 256 128)
    (A5 : Mat 2048 128) (A6 : Mat 1 128) (n : Fin 16384) (o : Fin 128) :
    kerOut A0 A1 A2 A3 A4 A5 A6 (ix2 n o)
      = ((∑ j : Fin 4, ∑ k : Fin 512, kRadial A0 A1 A2 A3 n (ctr j k) * A5 (ix2 (ctr j k) o))
        + ∑ d : Fin 256, A0 (ix2 n d) * A4 (ix2 d o)) + A6 (ix2 (0 : Fin 1) o) := rfl

/-- Four chunks of 512 list the 2048 centres once each. -/
theorem sum_ctr (f : Fin 2048 → EReal) : ∑ j : Fin 4, ∑ k : Fin 512, f (ctr j k) = ∑ k : Fin 2048, f k := by
  rw [← Fintype.sum_prod_type']
  refine Fintype.sum_equiv (finProdFinEquiv (m := 4) (n := 512)) _ _ fun x => congrArg f (Fin.ext ?_)
  show 512 * x.1.val + x.2.val = x.2.val + 512 * x.1.val
  omega

theorem zero_sub_ereal (x : EReal) : 0 - x = -x := by rw [sub_eq_add_neg, zero_add]

/-- On the first 64 lanes the tiled arrangement over the transposed, padded arrays is the layer's output. -/
theorem kerOut_eq_refOut (X : Mat 16384 256) (C : Mat 2048 256) (β : Mat 1 2048) (W : Mat 64 2304) (b : Row 64)
    (A1 : Mat 256 2048) (A2 : Mat 1 2048) (A4 : Mat 256 128) (A5 : Mat 2048 128) (A6 : Mat 1 128)
    (h1 : ∀ (d : Fin 256) (k : Fin 2048), A1 (ix2 d k) = C (ix2 k d))
    (h2 : ∀ k : Fin 2048, A2 (ix2 (0 : Fin 1) k) = sqn C k)
    (h4 : ∀ (d : Fin 256) (o : Fin 64), A4 (ix2 d (lane o)) = W (ix2 o (lo d)))
    (h5 : ∀ (k : Fin 2048) (o : Fin 64), A5 (ix2 k (lane o)) = W (ix2 o (hi k)))
    (h6 : ∀ o : Fin 64, A6 (ix2 (0 : Fin 1) (lane o)) = b (ix1 o))
    (n : Fin 16384) (o : Fin 64) :
    kerOut X A1 A2 β A4 A5 A6 (ix2 n (lane o)) = refOut X C β W b (ix2 n o) := by
  rw [kerOut_apply, refOut_apply, sum_ctr (fun k => kRadial X A1 A2 β n k * A5 (ix2 k (lane o))), h6]
  have hr : ∀ k : Fin 2048, kRadial X A1 A2 β n k = radial X C β n k := fun k => by
    unfold kRadial radial
    rw [zero_sub_ereal, h2]
    simp only [h1]
  simp only [hr, h4, h5]
  rw [add_comm (∑ k : Fin 2048, radial X C β n k * W (ix2 o (hi k)))]

end Cert.Rbf

end
-- ==== Proof.Pieces.lean ====
/-
  What the tiled computation leaves behind at a grid point, as values.

  The grid has 8 rows of 4 points; along a row the computation carries an accumulator block. At each point the body
  makes one covering store into the accumulator — the previous contents plus the product of this chunk's radial block
  with this chunk's weight rows — preceded, at a row's first point, by a store of the zero block (which the following
  load reads back), and followed, at a row's last point, by one covering store of the output block: the accumulator
  just written, plus the linear part, plus the bias row. Each lemma reads the stores found by the symbolic run back
  as the payload of the whole-buffer loads.
-/
import proofs.«167581_j16819091931602_2_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)
namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- At a point that is neither the first nor the last of its row of the grid, the accumulator ends holding the
    previous contents `xs0` plus this chunk's product: the one covering store's payload over the whole-buffer loads. -/
theorem scr_B (c : Dev nD) (i : grid0.Coords) (arg2 : Memref sig .tc .vmem S2048x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S256x128 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (hc0 : ¬cond0_0 i) (hc1 : ¬cond0_1 i) (x0 : Vec F S2048x256 .f32) (x1 : Vec F S256x512 .f32) (x2 : Vec F S1x512 .f32) (x3 : Vec F S1x512 .f32) (x4 : Vec F S256x128 .f32) (x5 : Vec F S512x128 .f32) (x6 : Vec F S1x128 .f32) (xs0 : Vec F S2048x128 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay3 x0 x1 x2 x3 x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S2048x256) hz, View.ld_unit_zero (S := S256x512) hz, View.ld_unit_zero (S := S1x512) hz, View.ld_unit_zero (S := S512x128) hz, View.ld_unit_zero (S := S2048x128) hz, View.ld_unit_zero (S := S256x128) hz, View.ld_unit_zero (S := S1x128) hz]

/-- At the first point of a row of the grid the accumulator is first set to the zero block, which the later load
    reads back, so it ends holding the zero block plus the first chunk's product. -/
theorem scr_A (c : Dev nD) (i : grid0.Coords) (arg2 : Memref sig .tc .vmem S2048x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S256x128 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (hc0 : cond0_0 i) (hc1 : ¬cond0_1 i) (x0 : Vec F S2048x256 .f32) (x1 : Vec F S256x512 .f32) (x2 : Vec F S1x512 .f32) (x3 : Vec F S1x512 .f32) (x4 : Vec F S256x128 .f32) (x5 : Vec F S512x128 .f32) (x6 : Vec F S1x128 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay3 x0 x1 x2 x3 x5 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S2048x128) hz, View.readCov_unit_zero (S := S2048x128) _ hz]
  simp only [View.readAt_eq_ld, harg2.read_unread, harg3.read_unread, harg4.read_unread, harg5.read_unread, harg6.read_unread, harg7.read_unread, harg8.read_unread, harg10.read_unread, View.ld_unit_zero (S := S2048x256) hz, View.ld_unit_zero (S := S256x512) hz, View.ld_unit_zero (S := S1x512) hz, View.ld_unit_zero (S := S512x128) hz, View.ld_unit_zero (S := S2048x128) hz, View.ld_unit_zero (S := S256x128) hz, View.ld_unit_zero (S := S1x128) hz]

/-- At the last point of a row of the grid the accumulator again ends at the previous contents plus the chunk's
    product, -/
theorem scr_C (c : Dev nD) (i : grid0.Coords) (arg2 : Memref sig .tc .vmem S2048x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S256x128 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (hc0 : ¬cond0_0 i) (hc1 : cond0_1 i) (x0 : Vec F S2048x256 .f32) (x1 : Vec F S256x512 .f32) (x2 : Vec F S1x512 .f32) (x3 : Vec F S1x512 .f32) (x4 : Vec F S256x128 .f32) (x5 : Vec F S512x128 .f32) (x6 : Vec F S1x128 .f32) (xs0 : Vec F S2048x128 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay3 x0 x1 x2 x3 x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg10.read_unread, View.ld_unit_zero (S := S2048x256) hz, View.ld_unit_zero (S := S256x512) hz, View.ld_unit_zero (S := S1x512) hz, View.ld_unit_zero (S := S512x128) hz, View.ld_unit_zero (S := S2048x128) hz, View.ld_unit_zero (S := S256x128) hz, View.ld_unit_zero (S := S1x128) hz]

/-- and the output block is that final accumulator (read back from the store just made) plus the linear part and
    the bias row. -/
theorem out_C (c : Dev nD) (i : grid0.Coords) (arg2 : Memref sig .tc .vmem S2048x256 .f32) (harg2 : arg2.IsWhole) (arg3 : Memref sig .tc .vmem S256x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S256x128 .f32) (harg6 : arg6.IsWhole) (arg7 : Memref sig .tc .vmem S512x128 .f32) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (hc0 : ¬cond0_0 i) (hc1 : cond0_1 i) (x0 : Vec F S2048x256 .f32) (x1 : Vec F S256x512 .f32) (x2 : Vec F S1x512 .f32) (x3 : Vec F S1x512 .f32) (x4 : Vec F S256x128 .f32) (x5 : Vec F S512x128 .f32) (x6 : Vec F S1x128 .f32) (xs0 : Vec F S2048x128 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay1 x0 x4 x6 (k0_pay3 x0 x1 x2 x3 x5 xs0) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero hz, View.readCov_unit_zero (S := S2048x128) _ hz]
  simp only [View.readAt_eq_ld, harg2.read_unread, harg3.read_unread, harg4.read_unread, harg5.read_unread, harg6.read_unread, harg7.read_unread, harg8.read_unread, harg10.read_unread, View.ld_unit_zero (S := S2048x256) hz, View.ld_unit_zero (S := S256x512) hz, View.ld_unit_zero (S := S1x512) hz, View.ld_unit_zero (S := S512x128) hz, View.ld_unit_zero (S := S2048x128) hz, View.ld_unit_zero (S := S256x128) hz, View.ld_unit_zero (S := S1x128) hz]

end Cert.KernelIdeal.Pieces
end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.Payload.lean ====
/-
  The body's arithmetic read at an index, on the extended reals.

  One grid point's accumulator update is, at row `r` and lane `o`, the previous accumulator plus
  `∑ k, rbf (0 - β k) ‖x r‖² (c² k) ⟨x r, cᵀ · k⟩ · w (k, o)` over the 512 centres of the chunk: the row sum of
  squares is cast to a column and broadcast along the row, the row of squared centre norms and the negated widths are
  broadcast down the rows, the two matrix products into a zero accumulator are plain sums, and a change of float
  format is the identity. The output update adds the linear part `∑ d, x (r, d) · l (d, o)` and the bias row. The
  block the accumulator starts from is zero.
-/
import proofs.«167581_j16819091931602_2_alg».proof.Proof.Spec
import proofs.«167581_j16819091931602_2_alg».proof.Proof.LibRowBlocks
import proofs.«167581_j16819091931602_2_alg».proof.Proof.Gen.KernelIdeal.Skeleton
import Idealize.ShloMosaic.Lib.Pipeline.Value
import Idealize.ShloMosaic.Lib.ValueLayout

noncomputable section
open scoped BigOperators
open Idealize.ShloMosaic Idealize.ShloMosaic.ValueIdx
namespace Cert.KernelIdeal.Payload
open Cert.KernelIdeal Cert.KernelIdeal.Gen Cert.Dense Cert.Rbf

theorem exp_apply {s : Shape} {φ : FTy} (a : FVec Ideal s φ) (i : s.Idx) : exp a i = Ideal.exp (a i) := rfl

theorem pay3_apply (x0 : Vec Ideal S2048x256 .f32) (x1 : Vec Ideal S256x512 .f32) (x2 x3 : Vec Ideal S1x512 .f32)
    (x5 : Vec Ideal S512x128 .f32) (acc : Vec Ideal S2048x128 .f32) (r : Fin 2048) (o : Fin 128) :
    k0_pay3 (F := Ideal) x0 x1 x2 x3 x5 acc (ix2 r o)
      = acc (ix2 r o) + ∑ k : Fin 512, rbf (0 - x3 (ix2 (0 : Fin 1) k)) (sqn x0 r) (x2 (ix2 (0 : Fin 1) k))
          (∑ d : Fin 256, x0 (ix2 r d) * x1 (ix2 d k)) * x5 (ix2 k o) := by
  unfold k0_pay3
  simp only [shapeCast_self]
  rw [addf_apply, Cert.Dense.matmul_zero_eq_mm _ rfl rfl rfl rfl rfl rfl, Cert.Dense.mm_apply]
  refine congrArg (acc (ix2 r o) + ·) (Finset.sum_congr rfl fun k _ => ?_)
  simp only [truncf_apply, exp_apply, mulf_apply, subf_apply, addf_apply, broadcast_apply, broadcastTo_1b_ab_apply,
    Cert.RowBlocks.broadcastTo_col_apply, Cert.RowBlocks.shapeCast_col_apply, Cert.RowBlocks.rowSum_apply,
    Cert.Dense.matmul_zero_eq_mm dot_S2048x256_S256x512_S2048x512_1_0_0_1_n_n rfl rfl rfl rfl rfl rfl, Cert.Dense.mm_apply]
  rw [Cert.RowBlocks.rowSum_apply (mulf x0 x0) reduces_S2048x256_S2048]
  show Ideal.exp ((Ideal.ofBits .f32 0x00000000#32 - _) * _) * _ = _
  rw [Ideal.ofBits_zero_f32]
  rfl

theorem pay1_apply (x0 : Vec Ideal S2048x256 .f32) (x4 : Vec Ideal S256x128 .f32) (x6 : Vec Ideal S1x128 .f32)
    (acc : Vec Ideal S2048x128 .f32) (r : Fin 2048) (o : Fin 128) :
    k0_pay1 (F := Ideal) x0 x4 x6 acc (ix2 r o)
      = (acc (ix2 r o) + ∑ d : Fin 256, x0 (ix2 r d) * x4 (ix2 d o)) + x6 (ix2 (0 : Fin 1) o) := by
  unfold k0_pay1
  simp only [shapeCast_self]
  rw [addf_apply, addf_apply, broadcastTo_1b_ab_apply, Cert.Dense.matmul_zero_eq_mm _ rfl rfl rfl rfl rfl rfl, Cert.Dense.mm_apply]

theorem pay2_apply (r : Fin 2048) (o : Fin 128) : k0_pay2 (F := Ideal) (ix2 r o) = 0 := by
  unfold k0_pay2
  simp only [shapeCast_self]
  exact Ideal.ofBits_zero_f32

end Cert.KernelIdeal.Payload
end
-- ==== Proof.Blocks.lean ====
/-
  The blocks a grid point sees, and what the accumulator and the output block hold after it.

  Point `t` of the 8 × 4 grid works on rows `2048 · (t / 4) …` of the batch and on centres `512 · (t % 4) …`:
  each window's block at `t` is its array read at the block's offset. So one accumulator update adds the chunk sum
  `∑ k, Φ(n, 512 · (t % 4) + k) · w (512 · (t % 4) + k, o)` of the arrays themselves, at the array row
  `n = 2048 · (t / 4) + r`.
-/
import proofs.«167581_j16819091931602_2_alg».proof.Proof.Spec
import proofs.«167581_j16819091931602_2_alg».proof.Proof.Pieces
import proofs.«167581_j16819091931602_2_alg».proof.Proof.Payload
import proofs.«167581_j16819091931602_2_alg».proof.Proof.Gen.KernelIdeal.Frame
import Idealize.ShloMosaic.Lib.Pipeline.Value

noncomputable section
open scoped BigOperators
open Idealize.ShloMosaic Idealize.ShloMosaic.TcCoe Idealize.ShloMosaic.ValueIdx Idealize.SL.Sem
open Idealize.ShloMosaic.Pipeline (Dat)
namespace Cert.KernelIdeal.Blocks
open Cert.KernelIdeal Cert.KernelIdeal.Gen Cert.Dense Cert.Rbf

variable (m : (ℓ : Loc nD τ sig) → Buf (Elt Ideal) ℓ)

/-- Where each window's block sits at point `t`, as block indices: decided over the 32 points. -/
theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = 0 ∧ win0_2.index t (1 : Fin 2) = t.val % 4
    ∧ win0_3.index t (0 : Fin 2) = 0 ∧ win0_3.index t (1 : Fin 2) = t.val % 4
    ∧ win0_4.index t (0 : Fin 2) = 0 ∧ win0_4.index t (1 : Fin 2) = 0
    ∧ win0_5.index t (0 : Fin 2) = t.val % 4 ∧ win0_5.index t (1 : Fin 2) = 0
    ∧ win0_6.index t (0 : Fin 2) = 0 ∧ win0_6.index t (1 : Fin 2) = 0
    ∧ win0_7.index t (0 : Fin 2) = t.val / 4 ∧ win0_7.index t (1 : Fin 2) = 0 :=
  (by decide +kernel : ∀ t : Fin grid0.N, _)

/-- Block `t` of window 0, read at `(p, q)`: the array at the block's offset plus `(p, q)`. -/
theorem blk0_apply (c : Dev nD) (t : Fin cfg0.N) (p : Fin 2048) (q : Fin 256) (P : Fin 16384) (Q : Fin 256)
    (hP : P.val = (t.val / 4) * 2048 + p.val) (hQ : Q.val = (0) * 256 + q.val) :
    (iblk m c 0 t : Vec Ideal S2048x256 .f32) (ix2 p q) = (V m c main_arg0 : S16384x256.Idx → EReal) (ix2 P Q) := by
  have e0 : win0_0.index t (0 : Fin 2) = t.val / 4 := (idx_facts t).1
  have e1 : win0_0.index t (1 : Fin 2) = 0 := (idx_facts t).2.1
  unfold iblk
  rw [View.read_apply]
  show V m c main_arg0 (((cfg0.win 0).blk t).view.emb (ix2 p q)) = _
  refine congrArg (V m c main_arg0) (funext fun a => Fin.ext ?_)
  match a with
  | ⟨0, _⟩ => show win0_0.index t (0 : Fin 2) * 2048 + 1 * p.val = P.val; rw [e0, hP]; omega
  | ⟨1, _⟩ => show win0_0.index t (1 : Fin 2) * 256 + 1 * q.val = Q.val; rw [e1, hQ]; omega

/-- Block `t` of window 1, read at `(p, q)`: the array at the block's offset plus `(p, q)`. -/
theorem blk1_apply (c : Dev nD) (t : Fin cfg0.N) (p : Fin 256) (q : Fin 512) (P : Fin 256) (Q : Fin 2048)
    (hP : P.val = (0) * 256 + p.val) (hQ : Q.val = (t.val % 4) * 512 + q.val) :
    (iblk m c 1 t : Vec Ideal S256x512 .f32) (ix2 p q) = (V m c main_v0 : S256x2048.Idx → EReal) (ix2 P Q) := by
  have e0 : win0_1.index t (0 : Fin 2) = 0 := (idx_facts t).2.2.1
  have e1 : win0_1.index t (1 : Fin 2) = t.val % 4 := (idx_facts t).2.2.2.1
  unfold iblk
  rw [View.read_apply]
  show V m c main_v0 (((cfg0.win 1).blk t).view.emb (ix2 p q)) = _
  refine congrArg (V m c main_v0) (funext fun a => Fin.ext ?_)
  match a with
  | ⟨0, _⟩ => show win0_1.index t (0 : Fin 2) * 256 + 1 * p.val = P.val; rw [e0, hP]; omega
  | ⟨1, _⟩ => show win0_1.index t (1 : Fin 2) * 512 + 1 * q.val = Q.val; rw [e1, hQ]; omega

/-- Block `t` of window 2, read at `(p, q)`: the array at the block's offset plus `(p, q)`. -/
theorem blk2_apply (c : Dev nD) (t : Fin cfg0.N) (p : Fin 1) (q : Fin 512) (P : Fin 1) (Q : Fin 2048)
    (hP : P.val = (0) * 1 + p.val) (hQ : Q.val = (t.val % 4) * 512 + q.val) :
    (iblk m c 2 t : Vec Ideal S1x512 .f32) (ix2 p q) = (V m c main_v3 : S1x2048.Idx → EReal) (ix2 P Q) := by
  have e0 : win0_2.index t (0 : Fin 2) = 0 := (idx_facts t).2.2.2.2.1
  have e1 : win0_2.index t (1 : Fin 2) = t.val % 4 := (idx_facts t).2.2.2.2.2.1
  unfold iblk
  rw [View.read_apply]
  show V m c main_v3 (((cfg0.win 2).blk t).view.emb (ix2 p q)) = _
  refine congrArg (V m c main_v3) (funext fun a => Fin.ext ?_)
  match a with
  | ⟨0, _⟩ => show win0_2.index t (0 : Fin 2) * 1 + 1 * p.val = P.val; rw [e0, hP]; omega
  | ⟨1, _⟩ => show win0_2.index t (1 : Fin 2) * 512 + 1 * q.val = Q.val; rw [e1, hQ]; omega

/-- Block `t` of window 3, read at `(p, q)`: the array at the block's offset plus `(p, q)`. -/
theorem blk3_apply (c : Dev nD) (t : Fin cfg0.N) (p : Fin 1) (q : Fin 512) (P : Fin 1) (Q : Fin 2048)
    (hP : P.val = (0) * 1 + p.val) (hQ : Q.val = (t.val % 4) * 512 + q.val) :
    (iblk m c 3 t : Vec Ideal S1x512 .f32) (ix2 p q) = (V m c main_arg2 : S1x2048.Idx → EReal) (ix2 P Q) := by
  have e0 : win0_3.index t (0 : Fin 2) = 0 := (idx_facts t).2.2.2.2.2.2.1
  have e1 : win0_3.index t (1 : Fin 2) = t.val % 4 := (idx_facts t).2.2.2.2.2.2.2.1
  unfold iblk
  rw [View.read_apply]
  show V m c main_arg2 (((cfg0.win 3).blk t).view.emb (ix2 p q)) = _
  refine congrArg (V m c main_arg2) (funext fun a => Fin.ext ?_)
  match a with
  | ⟨0, _⟩ => show win0_3.index t (0 : Fin 2) * 1 + 1 * p.val = P.val; rw [e0, hP]; omega
  | ⟨1, _⟩ => show win0_3.index t (1 : Fin 2) * 512 + 1 * q.val = Q.val; rw [e1, hQ]; omega

/-- Block `t` of window 4, read at `(p, q)`: the array at the block's offset plus `(p, q)`. -/
theorem blk4_apply (c : Dev nD) (t : Fin cfg0.N) (p : Fin 256) (q : Fin 128) (P : Fin 256) (Q : Fin 128)
    (hP : P.val = (0) * 256 + p.val) (hQ : Q.val = (0) * 128 + q.val) :
    (iblk m c 4 t : Vec Ideal S256x128 .f32) (ix2 p q) = (V m c main_v8 : S256x128.Idx → EReal) (ix2 P Q) := by
  have e0 : win0_4.index t (0 : Fin 2) = 0 := (idx_facts t).2.2.2.2.2.2.2.2.1
  have e1 : win0_4.index t (1 : Fin 2) = 0 := (idx_facts t).2.2.2.2.2.2.2.2.2.1
  unfold iblk
  rw [View.read_apply]
  show V m c main_v8 (((cfg0.win 4).blk t).view.emb (ix2 p q)) = _
  refine congrArg (V m c main_v8) (funext fun a => Fin.ext ?_)
  match a with
  | ⟨0, _⟩ => show win0_4.index t (0 : Fin 2) * 256 + 1 * p.val = P.val; rw [e0, hP]; omega
  | ⟨1, _⟩ => show win0_4.index t (1 : Fin 2) * 128 + 1 * q.val = Q.val; rw [e1, hQ]; omega

/-- Block `t` of window 5, read at `(p, q)`: the array at the block's offset plus `(p, q)`. -/
theorem blk5_apply (c : Dev nD) (t : Fin cfg0.N) (p : Fin 512) (q : Fin 128) (P : Fin 2048) (Q : Fin 128)
    (hP : P.val = (t.val % 4) * 512 + p.val) (hQ : Q.val = (0) * 128 + q.val) :
    (iblk m c 5 t : Vec Ideal S512x128 .f32) (ix2 p q) = (V m c main_v9 : S2048x128.Idx → EReal) (ix2 P Q) := by
  have e0 : win0_5.index t (0 : Fin 2) = t.val % 4 := (idx_facts t).2.2.2.2.2.2.2.2.2.2.1
  have e1 : win0_5.index t (1 : Fin 2) = 0 := (idx_facts t).2.2.2.2.2.2.2.2.2.2.2.1
  unfold iblk
  rw [View.read_apply]
  show V m c main_v9 (((cfg0.win 5).blk t).view.emb (ix2 p q)) = _
  refine congrArg (V m c main_v9) (funext fun a => Fin.ext ?_)
  match a with
  | ⟨0, _⟩ => show win0_5.index t (0 : Fin 2) * 512 + 1 * p.val = P.val; rw [e0, hP]; omega
  | ⟨1, _⟩ => show win0_5.index t (1 : Fin 2) * 128 + 1 * q.val = Q.val; rw [e1, hQ]; omega

/-- Block `t` of window 6, read at `(p, q)`: the array at the block's offset plus `(p, q)`. -/
theorem blk6_apply (c : Dev nD) (t : Fin cfg0.N) (p : Fin 1) (q : Fin 128) (P : Fin 1) (Q : Fin 128)
    (hP : P.val = (0) * 1 + p.val) (hQ : Q.val = (0) * 128 + q.val) :
    (iblk m c 6 t : Vec Ideal S1x128 .f32) (ix2 p q) = (V m c main_v11 : S1x128.Idx → EReal) (ix2 P Q) := by
  have e0 : win0_6.index t (0 : Fin 2) = 0 := (idx_facts t).2.2.2.2.2.2.2.2.2.2.2.2.1
  have e1 : win0_6.index t (1 : Fin 2) = 0 := (idx_facts t).2.2.2.2.2.2.2.2.2.2.2.2.2.1
  unfold iblk
  rw [View.read_apply]
  show V m c main_v11 (((cfg0.win 6).blk t).view.emb (ix2 p q)) = _
  refine congrArg (V m c main_v11) (funext fun a => Fin.ext ?_)
  match a with
  | ⟨0, _⟩ => show win0_6.index t (0 : Fin 2) * 1 + 1 * p.val = P.val; rw [e0, hP]; omega
  | ⟨1, _⟩ => show win0_6.index t (1 : Fin 2) * 128 + 1 * q.val = Q.val; rw [e1, hQ]; omega

/-- The seven arrays the region is handed, as matrices. -/
abbrev A0 (c : Dev nD) : Mat 16384 256 := V m c main_arg0
abbrev A1 (c : Dev nD) : Mat 256 2048 := V m c main_v0
abbrev A2 (c : Dev nD) : Mat 1 2048 := V m c main_v3
abbrev A3 (c : Dev nD) : Mat 1 2048 := V m c main_arg2
abbrev A4 (c : Dev nD) : Mat 256 128 := V m c main_v8
abbrev A5 (c : Dev nD) : Mat 2048 128 := V m c main_v9
abbrev A6 (c : Dev nD) : Mat 1 128 := V m c main_v11

/-- The sum over chunk `j`'s 512 centres of the radial value times the weight, at array row `n` and lane `o`. -/
def chunkSum (c : Dev nD) (n : Fin 16384) (j : Fin 4) (o : Fin 128) : EReal :=
  ∑ k : Fin 512, kRadial (A0 m c) (A1 m c) (A2 m c) (A3 m c) n (ctr j k) * A5 m c (ix2 (ctr j k) o)

/-- One accumulator update, for blocks that read given arrays at chunk `j` and array row `n`. -/
theorem acc_update_of (x0 : Vec Ideal S2048x256 .f32) (x1 : Vec Ideal S256x512 .f32) (x2 x3 : Vec Ideal S1x512 .f32)
    (x5 : Vec Ideal S512x128 .f32) (acc : Vec Ideal S2048x128 .f32)
    (B0 : Mat 16384 256) (B1 : Mat 256 2048) (B2 B3 : Mat 1 2048) (B5 : Mat 2048 128)
    (r : Fin 2048) (o : Fin 128) (n : Fin 16384) (j : Fin 4)
    (h0 : ∀ d : Fin 256, x0 (ix2 r d) = B0 (ix2 n d))
    (h1 : ∀ (d : Fin 256) (k : Fin 512), x1 (ix2 d k) = B1 (ix2 d (ctr j k)))
    (h2 : ∀ k : Fin 512, x2 (ix2 (0 : Fin 1) k) = B2 (ix2 (0 : Fin 1) (ctr j k)))
    (h3 : ∀ k : Fin 512, x3 (ix2 (0 : Fin 1) k) = B3 (ix2 (0 : Fin 1) (ctr j k)))
    (h5 : ∀ k : Fin 512, x5 (ix2 k o) = B5 (ix2 (ctr j k) o)) :
    k0_pay3 (F := Ideal) x0 x1 x2 x3 x5 acc (ix2 r o)
      = acc (ix2 r o) + ∑ k : Fin 512, kRadial B0 B1 B2 B3 n (ctr j k) * B5 (ix2 (ctr j k) o) := by
  rw [Payload.pay3_apply]
  refine congrArg (acc (ix2 r o) + ·) (Finset.sum_congr rfl fun k _ => ?_)
  unfold kRadial sqn
  simp only [h0, h1, h2, h3, h5]

/-- The output update, for blocks that read given arrays at array row `n`. -/
theorem out_update_of (x0 : Vec Ideal S2048x256 .f32) (x4 : Vec Ideal S256x128 .f32) (x6 : Vec Ideal S1x128 .f32)
    (acc : Vec Ideal S2048x128 .f32) (B0 : Mat 16384 256) (B4 : Mat 256 128) (B6 : Mat 1 128)
    (r : Fin 2048) (o : Fin 128) (n : Fin 16384)
    (h0 : ∀ d : Fin 256, x0 (ix2 r d) = B0 (ix2 n d))
    (h4 : ∀ d : Fin 256, x4 (ix2 d o) = B4 (ix2 d o))
    (h6 : x6 (ix2 (0 : Fin 1) o) = B6 (ix2 (0 : Fin 1) o)) :
    k0_pay1 (F := Ideal) x0 x4 x6 acc (ix2 r o)
      = (acc (ix2 r o) + ∑ d : Fin 256, B0 (ix2 n d) * B4 (ix2 d o)) + B6 (ix2 (0 : Fin 1) o) := by
  rw [Payload.pay1_apply]
  simp only [h0, h4, h6]

/-- One accumulator update at point `t`, in chunk `j = t % 4`, at block row `r` = array row `n`. -/
theorem acc_update (c : Dev nD) (t : Fin cfg0.N) (j : Fin 4) (hj : t.val % 4 = j.val) (acc : Vec Ideal S2048x128 .f32)
    (r : Fin 2048) (o : Fin 128) (n : Fin 16384) (hn : n.val = (t.val / 4) * 2048 + r.val) :
    k0_pay3 (F := Ideal) (iblk m c 0 t) (iblk m c 1 t) (iblk m c 2 t) (iblk m c 3 t) (iblk m c 5 t) acc (ix2 r o)
      = acc (ix2 r o) + chunkSum m c n j o := by
  have hk : ∀ k : Fin 512, (ctr j k).val = (t.val % 4) * 512 + k.val := fun k => by
    show 512 * j.val + k.val = _; omega
  exact acc_update_of (iblk m c 0 t) (iblk m c 1 t) (iblk m c 2 t) (iblk m c 3 t) (iblk m c 5 t) acc
    (A0 m c) (A1 m c) (A2 m c) (A3 m c) (A5 m c) r o n j
    (fun d => blk0_apply m c t r d n d hn (by omega))
    (fun d k => blk1_apply m c t d k d (ctr j k) (by omega) (hk k))
    (fun k => blk2_apply m c t (0 : Fin 1) k (0 : Fin 1) (ctr j k) (by show (0 : ℕ) = 0 * 1 + 0; rfl) (hk k))
    (fun k => blk3_apply m c t (0 : Fin 1) k (0 : Fin 1) (ctr j k) (by show (0 : ℕ) = 0 * 1 + 0; rfl) (hk k))
    (fun k => blk5_apply m c t k o (ctr j k) o (hk k) (by omega))

/-- The output update at a row's last point. -/
theorem out_update (c : Dev nD) (t : Fin cfg0.N) (acc : Vec Ideal S2048x128 .f32)
    (r : Fin 2048) (o : Fin 128) (n : Fin 16384) (hn : n.val = (t.val / 4) * 2048 + r.val) :
    k0_pay1 (F := Ideal) (iblk m c 0 t) (iblk m c 4 t) (iblk m c 6 t) acc (ix2 r o)
      = (acc (ix2 r o) + ∑ d : Fin 256, A0 m c (ix2 n d) * A4 m c (ix2 d o)) + A6 m c (ix2 (0 : Fin 1) o) :=
  out_update_of (iblk m c 0 t) (iblk m c 4 t) (iblk m c 6 t) acc (A0 m c) (A4 m c) (A6 m c) r o n
    (fun d => blk0_apply m c t r d n d hn (by omega))
    (fun d => blk4_apply m c t d o d o (by omega) (by omega))
    (blk6_apply m c t (0 : Fin 1) o (0 : Fin 1) o (by show (0 : ℕ) = 0 * 1 + 0; rfl) (by omega))

/-- What the accumulator holds after point `t`. -/
abbrev accAt (c : Dev nD) (t : Fin cfg0.N) : Vec Ideal S2048x128 .f32 := (outsAt0 m c t.val t.isLt).2

/-- The point before `t`. -/
abbrev pred1 (t : Fin cfg0.N) : Fin cfg0.N := ⟨t.val - 1, lt_of_le_of_lt (Nat.sub_le _ _) t.isLt⟩

/-- At a row's first point the accumulator is the update of the zero block. -/
theorem acc_first (c : Dev nD) (t : Fin cfg0.N) (h0 : t.val % 4 = 0) :
    accAt m c t = k0_pay3 (F := Ideal) (iblk m c 0 t) (iblk m c 1 t) (iblk m c 2 t) (iblk m c 3 t) (iblk m c 5 t) (k0_pay2 (F := Ideal)) := by
  have h1 : ¬t.val % 4 = 3 := by omega
  show (outsAt0 m c t.val t.isLt).2 = _
  rw [outsAt0_A m c t h0 h1]
  dsimp only
  exact Pieces.scr_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) ((hcond0_0 t).mpr h0) (fun h => h1 ((hcond0_1 t).mp h)) (iblk m c 0 t) (iblk m c 1 t) (iblk m c 2 t) (iblk m c 3 t) (iblk m c 4 t) (iblk m c 5 t) (iblk m c 6 t)

/-- At any later point of a row it is the update of what the point before left. -/
theorem acc_next (c : Dev nD) (t : Fin cfg0.N) (h0 : ¬t.val % 4 = 0) :
    accAt m c t = k0_pay3 (F := Ideal) (iblk m c 0 t) (iblk m c 1 t) (iblk m c 2 t) (iblk m c 3 t) (iblk m c 5 t) (accAt m c (pred1 t)) := by
  show (outsAt0 m c t.val t.isLt).2 = _
  by_cases h1 : t.val % 4 = 3
  · rw [outsAt0_C m c t h0 h1]
    dsimp only
    exact Pieces.scr_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) (fun h => h0 ((hcond0_0 t).mp h)) ((hcond0_1 t).mpr h1) (iblk m c 0 t) (iblk m c 1 t) (iblk m c 2 t) (iblk m c 3 t) (iblk m c 4 t) (iblk m c 5 t) (iblk m c 6 t) (accAt m c (pred1 t))
  · rw [outsAt0_B m c t h0 h1]
    dsimp only
    exact Pieces.scr_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (accAt m c (pred1 t))

/-- At a row's last point the output block is the output update of the accumulator just written. -/
theorem out_last (c : Dev nD) (t : Fin cfg0.N) (h3 : t.val % 4 = 3) :
    (outsAt0 m c t.val t.isLt).1 = k0_pay1 (F := Ideal) (iblk m c 0 t) (iblk m c 4 t) (iblk m c 6 t) (accAt m c t) := by
  have h0 : ¬t.val % 4 = 0 := by omega
  rw [acc_next m c t h0, outsAt0_C m c t h0 h3]
  dsimp only
  exact Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole cc0_scratch0) (fun h => h0 ((hcond0_0 t).mp h)) ((hcond0_1 t).mpr h3) (iblk m c 0 t) (iblk m c 1 t) (iblk m c 2 t) (iblk m c 3 t) (iblk m c 4 t) (iblk m c 5 t) (iblk m c 6 t) (accAt m c (pred1 t))

end Cert.KernelIdeal.Blocks
end
-- ==== Proof.Region.lean ====
/-
  The output array after the region.

  Along row `i` of the grid the accumulator runs through `0 + S₀`, `+ S₁`, `+ S₂`, `+ S₃` (the four chunk sums
  at the array row), and the row's last point writes back `((… ) + linear part) + bias`: block `i` of the tiled
  arrangement `kerOut` of the seven arrays the region is handed. The eight written-back blocks tile the rows of the
  output array, so the array ends at `kerOut` of those arrays.
-/
import proofs.«167581_j16819091931602_2_alg».proof.Proof.Blocks

noncomputable section
open scoped BigOperators
open Idealize.ShloMosaic Idealize.ShloMosaic.TcCoe Idealize.ShloMosaic.ValueIdx Idealize.SL.Sem
open Idealize.ShloMosaic.Pipeline (Dat)
namespace Cert.KernelIdeal.Region
open Cert.KernelIdeal Cert.KernelIdeal.Gen Cert.Dense Cert.Rbf Cert.KernelIdeal.Blocks

variable (m : (ℓ : Loc nD τ sig) → Buf (Elt Ideal) ℓ)

/-- The accumulator at a row's first point, at `(r, o)`. -/
theorem acc_first_apply (c : Dev nD) (t : Fin cfg0.N) (h0 : t.val % 4 = 0)
    (r : Fin 2048) (o : Fin 128) (n : Fin 16384) (hn : n.val = (t.val / 4) * 2048 + r.val) :
    accAt m c t (ix2 r o) = 0 + chunkSum m c n 0 o := by
  rw [acc_first m c t h0, acc_update m c t 0 h0 _ r o n hn, Payload.pay2_apply]

/-- The accumulator at a later point of a row, at `(r, o)`. -/
theorem acc_next_apply (c : Dev nD) (t : Fin cfg0.N) (j : Fin 4) (hj : t.val % 4 = j.val) (h0 : ¬t.val % 4 = 0)
    (r : Fin 2048) (o : Fin 128) (n : Fin 16384) (hn : n.val = (t.val / 4) * 2048 + r.val) :
    accAt m c t (ix2 r o) = accAt m c (pred1 t) (ix2 r o) + chunkSum m c n j o := by
  rw [acc_next m c t h0, acc_update m c t j hj _ r o n hn]

/-- The accumulator at a row's last point: the four chunk sums in order. -/
theorem acc_last_apply (c : Dev nD) (t : Fin cfg0.N) (h3 : t.val % 4 = 3)
    (r : Fin 2048) (o : Fin 128) (n : Fin 16384) (hn : n.val = (t.val / 4) * 2048 + r.val) :
    accAt m c t (ix2 r o)
      = (((0 + chunkSum m c n 0 o) + chunkSum m c n 1 o) + chunkSum m c n 2 o) + chunkSum m c n 3 o := by
  have hN : cfg0.N = 32 := N_0
  have ht : t.val < 32 := lt_of_lt_of_eq t.isLt hN
  rw [acc_next_apply m c t 3 h3 (by omega) r o n hn,
    acc_next_apply m c (pred1 t) 2 (by show (t.val - 1) % 4 = 2; omega) (by show ¬(t.val - 1) % 4 = 0; omega) r o n
      (by show n.val = ((t.val - 1) / 4) * 2048 + r.val; omega),
    acc_next_apply m c (pred1 (pred1 t)) 1 (by show (t.val - 1 - 1) % 4 = 1; omega)
      (by show ¬(t.val - 1 - 1) % 4 = 0; omega) r o n (by show n.val = ((t.val - 1 - 1) / 4) * 2048 + r.val; omega),
    acc_first_apply m c (pred1 (pred1 (pred1 t))) (by show (t.val - 1 - 1 - 1) % 4 = 0; omega) r o n
      (by show n.val = ((t.val - 1 - 1 - 1) / 4) * 2048 + r.val; omega)]

/-- The tiled arrangement of the arrays the region is handed. -/
abbrev kerArr (c : Dev nD) : Mat 16384 128 :=
  kerOut (A0 m c) (A1 m c) (A2 m c) (A3 m c) (A4 m c) (A5 m c) (A6 m c)

/-- The output block at a row's last point, at `(r, o)`: the tiled arrangement at array row `n`. -/
theorem out_last_apply (c : Dev nD) (t : Fin cfg0.N) (h3 : t.val % 4 = 3)
    (r : Fin 2048) (o : Fin 128) (n : Fin 16384) (hn : n.val = (t.val / 4) * 2048 + r.val) :
    ((outsAt0 m c t.val t.isLt).1 : Vec Ideal S2048x128 .f32) (ix2 r o) = kerArr m c (ix2 n o) := by
  rw [out_last m c t h3, out_update m c t _ r o n hn, acc_last_apply m c t h3 r o n hn]
  show _ = kerOut (A0 m c) (A1 m c) (A2 m c) (A3 m c) (A4 m c) (A5 m c) (A6 m c) (ix2 n o)
  rw [kerOut_apply, Fin.sum_univ_four, zero_add]
  rfl

/-- What point `t` writes back is block `t` of the tiled arrangement. -/
theorem flushed_eq (c : Dev nD) (t : Fin cfg0.N) (hf : (cfg0.win 7).flush t = true) :
    (dats m 0 c).flushed 7 t = ((cfg0.win 7).blk t).view.read (Elt Ideal) (kerArr m c) := by
  have h3 : t.val % 4 = 3 := (flush0_7 t).mp hf
  have hN : cfg0.N = 32 := N_0
  have ht : t.val < 32 := lt_of_lt_of_eq t.isLt hN
  have e0 : win0_7.index t (0 : Fin 2) = t.val / 4 := (idx_facts t).2.2.2.2.2.2.2.2.2.2.2.2.2.2.1
  have e1 : win0_7.index t (1 : Fin 2) = 0 := (idx_facts t).2.2.2.2.2.2.2.2.2.2.2.2.2.2.2
  show (cfg0.win 7).cut (grid0.coords t) ((dats m 0 c).after 7 t) = _
  rw [after0_7]
  funext y
  have hy0 : (y 0).val < 2048 := (y 0).isLt
  have hy1 : (y 1).val < 128 := (y 1).isLt
  show ((outsAt0 m c t.val t.isLt).1 : Vec Ideal S2048x128 .f32) y = kerArr m c (((cfg0.win 7).blk t).view.emb y)
  have hye : y = ix2 (⟨(y 0).val, hy0⟩ : Fin 2048) (⟨(y 1).val, hy1⟩ : Fin 128) :=
    funext fun a => Fin.ext (by match a with | ⟨0, _⟩ => rfl | ⟨1, _⟩ => rfl)
  have hemb : ((cfg0.win 7).blk t).view.emb y
      = ix2 (⟨(t.val / 4) * 2048 + (y 0).val, by omega⟩ : Fin 16384) (⟨(y 1).val, hy1⟩ : Fin 128) :=
    funext fun a => Fin.ext (by
      match a with
      | ⟨0, _⟩ => show win0_7.index t (0 : Fin 2) * 2048 + 1 * (y 0).val = (t.val / 4) * 2048 + (y 0).val; rw [e0]; omega
      | ⟨1, _⟩ => show win0_7.index t (1 : Fin 2) * 128 + 1 * (y 1).val = (y 1).val; rw [e1]; omega)
  rw [hemb]
  exact (congrArg ((outsAt0 m c t.val t.isLt).1 : Vec Ideal S2048x128 .f32) hye).trans
    (out_last_apply m c t h3 ⟨(y 0).val, hy0⟩ ⟨(y 1).val, hy1⟩ ⟨(t.val / 4) * 2048 + (y 0).val, by omega⟩ rfl)

/-- An index of the output array is in point `t`'s block iff each coordinate is in the block's range. -/
theorem mem_blk (t : Fin cfg0.N) (i : S16384x128.Idx) :
    i ∈ ((cfg0.win 7).blk t).view.set ↔ ∀ a : Fin 2, win0_7.index t a * S2048x128.size a ≤ (i a).val
      ∧ (i a).val < win0_7.index t a * S2048x128.size a + S2048x128.size a := by
  show i ∈ ((View.whole main_v12).slice (win0_7.rect t)).set ↔ _
  rw [View.set_slice_whole, Rect.mem_set_unit]
  exact Iff.rfl

/-- The output array after the region: the last point of row `i₀ / 2048` of the grid covers index `i`. -/
theorem final (c : Dev nD) : (dats m 0 c).arrAt 7 cfg0.N = kerArr m c :=
  (dats m 0 c).arrAt_eq_of_cover 7 (kerArr m c) (fun t hf => flushed_eq m c t hf) fun i => by
    have hN : cfg0.N = 32 := N_0
    have hi0 : (i 0).val < 16384 := (i 0).isLt
    have hi1 : (i 1).val < 128 := (i 1).isLt
    have hlt : 4 * ((i 0).val / 2048) + 3 < cfg0.N := by rw [hN]; omega
    refine ⟨⟨4 * ((i 0).val / 2048) + 3, hlt⟩, (flush0_7 _).mpr (by show (4 * ((i 0).val / 2048) + 3) % 4 = 3; omega), ?_⟩
    have e0 : win0_7.index ⟨4 * ((i 0).val / 2048) + 3, hlt⟩ (0 : Fin 2) = (4 * ((i 0).val / 2048) + 3) / 4 :=
      (idx_facts _).2.2.2.2.2.2.2.2.2.2.2.2.2.2.1
    have e1 : win0_7.index ⟨4 * ((i 0).val / 2048) + 3, hlt⟩ (1 : Fin 2) = 0 :=
      (idx_facts _).2.2.2.2.2.2.2.2.2.2.2.2.2.2.2
    rw [mem_blk]
    intro a
    match a with
    | ⟨0, _⟩ =>
      show win0_7.index ⟨4 * ((i 0).val / 2048) + 3, hlt⟩ (0 : Fin 2) * 2048 ≤ (i 0).val
        ∧ (i 0).val < win0_7.index ⟨4 * ((i 0).val / 2048) + 3, hlt⟩ (0 : Fin 2) * 2048 + 2048
      rw [e0]; omega
    | ⟨1, _⟩ =>
      show win0_7.index ⟨4 * ((i 0).val / 2048) + 3, hlt⟩ (1 : Fin 2) * 128 ≤ (i 1).val
        ∧ (i 1).val < win0_7.index ⟨4 * ((i 0).val / 2048) + 3, hlt⟩ (1 : Fin 2) * 128 + 128
      rw [e1]; omega

end Cert.KernelIdeal.Region
end
-- ==== Proof.HostSide.lean ====
/-
  What the host operations around the tiled region compute, read at an index.

  Before the region: the centres transposed (`v0_apply`); the row of squared centre norms, a sum over the feature
  axis started from the zero word, which is `0 + ∑` and so the plain sum (`v3_apply`); the two column ranges of the
  weight matrix, each sliced out, transposed and padded from 64 to 128 lanes, read on the first 64 lanes where the
  pad returns its operand (`v8_apply`, `v9_apply`); the bias padded from 64 to 128 lanes and laid out as one row
  (`v11_apply`). After the region: the first 64 lanes of the region's output array (`tail_apply`).
-/
import proofs.«167581_j16819091931602_2_alg».proof.Proof.Spec
import proofs.«167581_j16819091931602_2_alg».proof.Proof.Gen.KernelIdeal.Frame
import Idealize.ShloMosaic.Lib.Pipeline.Value
import Idealize.ShloMosaic.Lib.StableHlo.Run
import Idealize.ShloMosaic.Lib.KernelVsHost
import Idealize.ShloMosaic.Lib.IdealHost

noncomputable section

open scoped BigOperators

namespace Cert.KernelIdeal.HostSide

open Idealize.ShloMosaic Idealize.ShloMosaic.TcCoe Idealize.ShloMosaic.ValueIdx Idealize.SL.Sem Cert.KernelIdeal Cert.KernelIdeal.Gen Cert.Dense Cert.Rbf

variable (m : (ℓ : Loc nD τ sig) → Buf (Elt Ideal) ℓ)

/-- Open the contents at region entry into the composed host operations. -/
local macro "v_open" : tactic => `(tactic| (
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results))

theorem v0_apply (c : Dev nD) (d : Fin 256) (k : Fin 2048) :
    (V m c main_v0 : S256x2048.Idx → EReal) (ix2 d k) = m ((c : Thread nD τ).loc main_arg1) (ix2 k d) := by
  have e : (V m c main_v0 : S256x2048.Idx → EReal)
      = transpose S256x2048 [1, 0] (m ((c : Thread nD τ).loc main_arg1) : S2048x256.Idx → EReal) transposes_S2048x256_S256x2048_1_0 := by
    v_open
  rw [e]
  exact transpose_apply _ _ _ _ (ix2 k d) fun b => match b with | ⟨0, _⟩ => rfl | ⟨1, _⟩ => rfl

/-- Coordinate `d` inserted on the summed axis of row `k`. -/
theorem lift_row (h : S2048x256.Reduces [1] S2048) (k : Fin 2048) (d : Fin 256) :
    h.lift (ix1 k) d = ix2 k d :=
  funext fun a => match a with | ⟨0, _⟩ => rfl | ⟨1, _⟩ => rfl

theorem v3_apply (c : Dev nD) (k : Fin 2048) :
    (V m c main_v3 : S1x2048.Idx → EReal) (ix2 (0 : Fin 1) k) = Cert.Rbf.sqn (m ((c : Thread nD τ).loc main_arg1)) k := by
  have e : (V m c main_v3 : S1x2048.Idx → EReal)
      = broadcastInDim S1x2048 ![1] bcast_S2048_S1x2048_1
          (Host.reduceAdd (F := Ideal) (mulf (m ((c : Thread nD τ).loc main_arg1) : FVec Ideal S2048x256 .f32) (m ((c : Thread nD τ).loc main_arg1)))
            (constant (F := Ideal) S_ .f32 0x00000000#32) reducesTo_S2048x256_S2048_d1 h_S_) := by
    v_open
  rw [e]
  refine (broadcastInDim_apply _ _ _ (ix2 (0 : Fin 1) k) (ix1 k) fun a => match a with | ⟨0, _⟩ => rfl).trans ?_
  rw [hostReduceAdd_apply, Ideal.hostReduceAdd_single _ (by decide : S2048x256.Reduces [1] S2048), constant_apply,
    Ideal.ofBits_zero_f32, zero_add]
  unfold Cert.Rbf.sqn
  show (∑ d : Fin 256, _ : EReal) = ∑ d : Fin 256, _
  refine Finset.sum_congr rfl fun d _ => ?_
  rw [mulf_apply, lift_row]

theorem v8_apply (c : Dev nD) (d : Fin 256) (o : Fin 64) :
    (V m c main_v8 : S256x128.Idx → EReal) (ix2 d (lane o)) = m ((c : Thread nD τ).loc main_arg3) (ix2 o (lo d)) := by
  have e : (V m c main_v8 : S256x128.Idx → EReal)
      = pad S256x128 ![0, 0] ![0, 64] ![0, 0]
          (transpose S256x64 [1, 0]
            (extractStridedSlice S64x256 ![0, 0] (m ((c : Thread nD τ).loc main_arg3) : S64x2304.Idx → EReal)
              slices_S64x2304_S64x256_0_0) transposes_S64x256_S256x64_1_0)
          (sitofp (F := Ideal) .f32 (constantI S_ 32 0#32) : S_.Idx → EReal) pads_S256x64_S256x128_000_0640 h_S_ := by
    v_open <;> rfl
  rw [e]
  refine (pad_apply_of_inside _ _ _ _ _ _ _ (ix2 d (lane o)) (ix2 d o) fun a => match a with
    | ⟨0, _⟩ => ?_ | ⟨1, _⟩ => ?_).trans ?_
  · show d.val = 0 + d.val * (0 + 1)
    omega
  · show o.val = 0 + o.val * (0 + 1)
    omega
  refine (transpose_apply _ _ _ (ix2 d o) (ix2 o d) fun b => match b with | ⟨0, _⟩ => rfl | ⟨1, _⟩ => rfl).trans ?_
  exact extractStridedSlice_apply _ _ _ (ix2 o d) (ix2 o (lo d)) fun a => match a with
    | ⟨0, _⟩ => (Nat.zero_add _).symm | ⟨1, _⟩ => (Nat.zero_add _).symm

theorem v9_apply (c : Dev nD) (k : Fin 2048) (o : Fin 64) :
    (V m c main_v9 : S2048x128.Idx → EReal) (ix2 k (lane o)) = m ((c : Thread nD τ).loc main_arg3) (ix2 o (hi k)) := by
  have e : (V m c main_v9 : S2048x128.Idx → EReal)
      = pad S2048x128 ![0, 0] ![0, 64] ![0, 0]
          (transpose S2048x64 [1, 0]
            (extractStridedSlice S64x2048 ![0, 256] (m ((c : Thread nD τ).loc main_arg3) : S64x2304.Idx → EReal)
              slices_S64x2304_S64x2048_0_256) transposes_S64x2048_S2048x64_1_0)
          (sitofp (F := Ideal) .f32 (constantI S_ 32 0#32) : S_.Idx → EReal) pads_S2048x64_S2048x128_000_0640 h_S_ := by
    v_open <;> rfl
  rw [e]
  refine (pad_apply_of_inside _ _ _ _ _ _ _ (ix2 k (lane o)) (ix2 k o) fun a => match a with
    | ⟨0, _⟩ => ?_ | ⟨1, _⟩ => ?_).trans ?_
  · show k.val = 0 + k.val * (0 + 1)
    omega
  · show o.val = 0 + o.val * (0 + 1)
    omega
  refine (transpose_apply _ _ _ (ix2 k o) (ix2 o k) fun b => match b with | ⟨0, _⟩ => rfl | ⟨1, _⟩ => rfl).trans ?_
  exact extractStridedSlice_apply _ _ _ (ix2 o k) (ix2 o (hi k)) fun a => match a with
    | ⟨0, _⟩ => (Nat.zero_add _).symm | ⟨1, _⟩ => rfl

theorem v11_apply (c : Dev nD) (o : Fin 64) :
    (V m c main_v11 : S1x128.Idx → EReal) (ix2 (0 : Fin 1) (lane o)) = m ((c : Thread nD τ).loc main_arg4) (ix1 o) := by
  have e : (V m c main_v11 : S1x128.Idx → EReal)
      = shapeCast S1x128
          (pad S128 ![0] ![64] ![0] (m ((c : Thread nD τ).loc main_arg4) : S64.Idx → EReal)
            (sitofp (F := Ideal) .f32 (constantI S_ 32 0#32) : S_.Idx → EReal) pads_S64_S128_0640 h_S_)
          shapeCasts_S128_S1x128 := by
    v_open <;> rfl
  rw [e]
  refine (shapeCast_apply _ _ (ix2 (0 : Fin 1) (lane o)) (ix1 (lane o)) ?_).trans ?_
  · rw [Shape.rowMajor_val_one, Shape.rowMajor_val_two]
    show o.val = (0 : ℕ) * 128 + o.val
    omega
  exact pad_apply_of_inside _ _ _ _ _ _ _ (ix1 (lane o)) (ix1 o) fun a => match a with
    | ⟨0, _⟩ => by
      show o.val = 0 + o.val * (0 + 1)
      omega

theorem tail_apply (c : Dev nD) (n : Fin 16384) (o : Fin 64) :
    (Pipeline.afterTail₀ cfgs (dats m) 0 (V0 m) [hostOps1] c main_v13 : S16384x64.Idx → EReal) (ix2 n o)
      = ((dats m 0 c).arrAt 7 cfg0.N : S16384x128.Idx → EReal) (ix2 n (lane o)) := by
  have h7 : @Eq (S16384x128.Idx → EReal)
      (Pipeline.withArrays (cfgs 0).spec c (V0 m c) (fun w => (dats m 0 c).arrAt w (cfgs 0).N) (Proc.devRef .tc main_v12))
      ((dats m 0 c).arrAt 7 cfg0.N) :=
    Pipeline.withArrays_arr spec0 launch0.win.arr_inj c _ _ 7
  have e : (Pipeline.afterTail₀ cfgs (dats m) 0 (V0 m) [hostOps1] c main_v13 : S16384x64.Idx → EReal)
      = extractStridedSlice S16384x64 ![0, 0] ((dats m 0 c).arrAt 7 cfg0.N : S16384x128.Idx → EReal)
          slices_S16384x128_S16384x64_0_0 := by
    unfold Pipeline.afterTail₀
    show StableHlo.after hostOps1 _ (Proc.devRef .tc main_v13) = _
    after_results
    exact congrArg (fun x : S16384x128.Idx → EReal => extractStridedSlice S16384x64 ![0, 0] x slices_S16384x128_S16384x64_0_0) h7
  rw [e]
  exact extractStridedSlice_apply _ _ _ (ix2 n o) (ix2 n (lane o)) fun a => match a with
    | ⟨0, _⟩ => (Nat.zero_add _).symm | ⟨1, _⟩ => (Nat.zero_add _).symm

end Cert.KernelIdeal.HostSide
end
-- ==== Proof.Result.lean ====
/-
  The tiled program's result, and its run.

  After the region the output array holds the tiled arrangement of the seven arrays the region was handed; the one
  host operation that follows keeps its first 64 lanes. The transposed centres, the row of squared centre norms, and
  the transposed, padded halves of the weight matrix and the padded bias read, on those lanes, the argument arrays
  themselves, so the result is the layer's output `refOut` of the arguments.
-/
import proofs.«167581_j16819091931602_2_alg».proof.Proof.Region
import proofs.«167581_j16819091931602_2_alg».proof.Proof.HostSide

noncomputable section
open scoped BigOperators
open Idealize.ShloMosaic Idealize.ShloMosaic.TcCoe Idealize.ShloMosaic.ValueIdx Idealize.SL.Sem
open Idealize.ShloMosaic.Pipeline (Dat)
namespace Cert.KernelIdeal.Result
open Cert.KernelIdeal Cert.KernelIdeal.Gen Cert.Dense Cert.Rbf Cert.KernelIdeal.Blocks Cert.KernelIdeal.Region

variable (m : (ℓ : Loc nD τ sig) → Buf (Elt Ideal) ℓ) (ρ : Dev nD → PrngReg)

/-- The result: the layer's output of the five argument arrays. -/
def result (c : Dev nD) : Buf (Elt Ideal) ((c : Thread nD τ).loc main_v13) :=
  refOut (m ((c : Thread nD τ).loc main_arg0)) (m ((c : Thread nD τ).loc main_arg1)) (m ((c : Thread nD τ).loc main_arg2))
    (m ((c : Thread nD τ).loc main_arg3)) (m ((c : Thread nD τ).loc main_arg4))

/-- The slice after the region reads the first 64 lanes of the tiled arrangement: the layer's output. -/
theorem tail_eq (c : Dev nD) : Pipeline.afterTail₀ cfgs (dats m) 0 (V0 m) [hostOps1] c main_v13 = result m c := by
  funext i
  obtain ⟨n, o, rfl⟩ : ∃ (n : Fin 16384) (o : Fin 64), i = ix2 n o := ⟨i 0, i 1, eq_ix2 i⟩
  refine (HostSide.tail_apply m c n o).trans ?_
  rw [Region.final m c]
  show kerOut (V m c main_arg0) (A1 m c) (A2 m c) (V m c main_arg2) (A4 m c) (A5 m c) (A6 m c) (ix2 n (lane o)) = _
  rw [V_main_arg0 m c, V_main_arg2 m c]
  exact kerOut_eq_refOut (m ((c : Thread nD τ).loc main_arg0)) (m ((c : Thread nD τ).loc main_arg1))
    (m ((c : Thread nD τ).loc main_arg2)) (m ((c : Thread nD τ).loc main_arg3)) (m ((c : Thread nD τ).loc main_arg4))
    (A1 m c) (A2 m c) (A4 m c) (A5 m c) (A6 m c)
    (fun d k => HostSide.v0_apply m c d k) (fun k => HostSide.v3_apply m c k)
    (fun d o => HostSide.v8_apply m c d o) (fun k o => HostSide.v9_apply m c k o) (fun o => HostSide.v11_apply m c o) n o

/-- The run, read: the result at the layer's output of the arguments, the arguments unchanged. -/
theorem run : θ_run defs (onTc (τ := τ) (main (F := Ideal))) ⟨m, fun _ => 0, ρ⟩ fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v13 (Pipeline.mem_restRefs_of main_v13 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result
end
-- ==== Proof.RefSide.lean ====
/-
  The reference program computes the layer's output.

  The reference squares and row-sums the batch and the centres, takes the inner products of batch rows with centre
  rows through a transposed copy of the centres, forms exp (-β k · ((‖X n‖² + ‖C k‖²) - 2 · ⟨X n, C k⟩)), joins the
  batch and these radial features along the feature axis, multiplies by the transposed weight matrix and adds the bias
  broadcast over the rows. Read at an index (n, o), every layout operation is a re-indexing, each float sum starts
  from zero, and the contraction over the 2304 joined features is the sum over its first 256 (the batch part) and its
  last 2048 (the radial part).
-/
import proofs.«167581_j16819091931602_2_alg».proof.Proof.Spec
import proofs.«167581_j16819091931602_2_alg».proof.Proof.Gen.ReferenceIdeal.Read

noncomputable section

open scoped BigOperators

namespace Cert.Rbf.RefSide

open Idealize.ShloMosaic Idealize.ShloMosaic.ValueIdx Cert.Dense Cert.ReferenceIdeal Cert.ReferenceIdeal.Gen
  Cert.ReferenceIdeal.Read

/-! ### The re-indexings, at a point (n, k) of the radial array -/

/-- The row of squares summed for ‖X n‖²: broadcast back along the centres, then along a unit axis. -/
theorem ix_sqx (n : Fin 16384) (k : Fin 2048) (d : Fin 256) :
    idx_main_v1 (idx_main_v2 (idx_main_v8 (ix2 n k))) d = ix2 n d :=
  funext fun a => Fin.ext (by match a with | ⟨0, _⟩ => rfl | ⟨1, _⟩ => rfl)

/-- The row of squares summed for ‖C k‖²: broadcast back along the batch, then along a unit axis. -/
theorem ix_sqc (n : Fin 16384) (k : Fin 2048) (d : Fin 256) :
    idx_main_v4 (idx_main_v5 (idx_main_v9 (ix2 n k))) d = ix2 k d :=
  funext fun a => Fin.ext (by match a with | ⟨0, _⟩ => rfl | ⟨1, _⟩ => rfl)

/-- The left operand of the inner product at (n, k), term d. -/
theorem ix_dotl (n : Fin 16384) (k : Fin 2048) (d : Fin 256) : lidx_main_v7 (ix2 n k) d = ix2 n d :=
  funext fun a => Fin.ext (by match a with | ⟨0, _⟩ => rfl | ⟨1, _⟩ => rfl)

/-- The right operand of the inner product at (n, k), term d, through the transposition. -/
theorem ix_dotr (n : Fin 16384) (k : Fin 2048) (d : Fin 256) :
    idx_main_v6 (ridx_main_v7 (ix2 n k) d) = ix2 k d :=
  funext fun a => Fin.ext (by match a with | ⟨0, _⟩ => rfl | ⟨1, _⟩ => rfl)

/-- The width read at (n, k) is the width of centre k. -/
theorem ix_beta (n : Fin 16384) (k : Fin 2048) : idx_main_v15 (ix2 n k) = ix2 (0 : Fin 1) k :=
  funext fun a => Fin.ext (by match a with | ⟨0, _⟩ => rfl | ⟨1, _⟩ => rfl)

/-! ### The radial feature -/

/-- The squared norm of batch row n, as the reference sums it from zero. -/
theorem sqx_at (x0 : FVec Ideal S16384x256 .f32) (n : Fin 16384) (k : Fin 2048) :
    val_main_v8 (F := Ideal) x0 (ix2 n k) = sqn x0 n := by
  rw [val_main_v8_apply, val_main_v2_apply, val_main_v1_apply, val_main_cst_apply]
  simp only [val_main_v0_apply, ix_sqx, Ideal.ofBits_def, Ideal.mulf_def]
  rw [Ideal.ofBits_zero_f32, zero_add]
  rfl

/-- The squared norm of centre k, as the reference sums it from zero. -/
theorem sqc_at (x1 : FVec Ideal S2048x256 .f32) (n : Fin 16384) (k : Fin 2048) :
    val_main_v9 (F := Ideal) x1 (ix2 n k) = sqn x1 k := by
  rw [val_main_v9_apply, val_main_v5_apply, val_main_v4_apply, val_main_cst_0_apply]
  simp only [val_main_v3_apply, ix_sqc, Ideal.ofBits_def, Ideal.mulf_def]
  rw [Ideal.ofBits_zero_f32, zero_add]
  rfl

/-- The inner product of batch row n and centre k. -/
theorem dot_at (x0 : FVec Ideal S16384x256 .f32) (x1 : FVec Ideal S2048x256 .f32) (n : Fin 16384) (k : Fin 2048) :
    val_main_v7 (F := Ideal) x0 x1 (ix2 n k) = ∑ d : Fin 256, x0 (ix2 n d) * x1 (ix2 k d) := by
  rw [val_main_v7_apply]
  simp only [val_main_v6_apply, ix_dotl, ix_dotr]

/-- The radial array at (n, k) is the radial feature Φ(n, k). -/
theorem radial_at (x0 : FVec Ideal S16384x256 .f32) (x1 : FVec Ideal S2048x256 .f32) (x2 : FVec Ideal S1x2048 .f32)
    (n : Fin 16384) (k : Fin 2048) :
    val_main_v17 (F := Ideal) x0 x1 x2 (ix2 n k) = radial x0 x1 x2 n k := by
  rw [val_main_v17_apply, val_main_v16_apply, val_main_v15_apply, val_main_v14_apply, val_main_v13_apply,
    val_main_v10_apply, val_main_v12_apply, val_main_v11_apply, val_main_cst_1_apply, sqx_at, sqc_at, dot_at, ix_beta]
  rfl

/-! ### The joined features and the contraction over them -/

/-- A sum over the 2304 joined features is the sum over the batch part plus the sum over the radial part. -/
theorem sum_split (f : Fin 2304 → EReal) :
    ∑ j : Fin 2304, f j = (∑ d : Fin 256, f (lo d)) + ∑ k : Fin 2048, f (hi k) :=
  Fin.sum_univ_add (M := EReal) (a := 256) (b := 2048) f

/-- Among the joined features, feature d of the batch part is the batch itself. -/
theorem joined_lo (x0 : FVec Ideal S16384x256 .f32) (x1 : FVec Ideal S2048x256 .f32) (x2 : FVec Ideal S1x2048 .f32)
    (n : Fin 16384) (d : Fin 256) :
    val_main_v18 (F := Ideal) x0 x1 x2 (ix2 n (lo d)) = x0 (ix2 n d) := by
  unfold val_main_v18
  exact concatenate_pair_apply_left (1 : Fin S16384x2304.rank) x0 (val_main_v17 (F := Ideal) x0 x1 x2)
    concatenates_S16384x256_S16384x2048_S16384x2304_d1 (ix2 n (lo d)) rfl (ix2 n d)
    (fun b => by match b with | ⟨0, _⟩ => rfl | ⟨1, _⟩ => rfl)

/-- Among the joined features, feature k of the radial part is the radial feature Φ(n, k). -/
theorem joined_hi (x0 : FVec Ideal S16384x256 .f32) (x1 : FVec Ideal S2048x256 .f32) (x2 : FVec Ideal S1x2048 .f32)
    (n : Fin 16384) (k : Fin 2048) :
    val_main_v18 (F := Ideal) x0 x1 x2 (ix2 n (hi k)) = radial x0 x1 x2 n k := by
  unfold val_main_v18
  refine (concatenate_pair_apply_right (1 : Fin S16384x2304.rank) x0 (val_main_v17 (F := Ideal) x0 x1 x2)
    concatenates_S16384x256_S16384x2048_S16384x2304_d1 (ix2 n (hi k)) rfl rfl (ix2 n k)
    (fun b => by
      match b with
      | ⟨0, _⟩ => exact fun _ => rfl
      | ⟨1, _⟩ => exact fun h => absurd rfl h)
    (by show k.val + 256 = 256 + k.val; omega)).trans ?_
  exact radial_at x0 x1 x2 n k

/-- The left operand of the contraction at (n, o), term j. -/
theorem ix_outl (n : Fin 16384) (o : Fin 64) (j : Fin 2304) : lidx_main_v20 (ix2 n o) j = ix2 n j :=
  funext fun a => Fin.ext (by match a with | ⟨0, _⟩ => rfl | ⟨1, _⟩ => rfl)

/-- The right operand of the contraction at (n, o), term j, through the transposition of the weights. -/
theorem ix_outr (n : Fin 16384) (o : Fin 64) (j : Fin 2304) :
    idx_main_v19 (ridx_main_v20 (ix2 n o) j) = ix2 o j :=
  funext fun a => Fin.ext (by match a with | ⟨0, _⟩ => rfl | ⟨1, _⟩ => rfl)

/-- The bias read at (n, o), through its two broadcasts, is the bias of output o. -/
theorem ix_bias (n : Fin 16384) (o : Fin 64) : idx_main_v21 (idx_main_v22 (ix2 n o)) = ix1 o :=
  funext fun a => Fin.ext (by match a with | ⟨0, _⟩ => rfl)

/-- The contraction over the joined features at (n, o): the batch part plus the radial part. -/
theorem joined_sum (x0 : FVec Ideal S16384x256 .f32) (x1 : FVec Ideal S2048x256 .f32) (x2 : FVec Ideal S1x2048 .f32)
    (x3 : FVec Ideal S64x2304 .f32) (n : Fin 16384) (o : Fin 64) :
    val_main_v20 (F := Ideal) x0 x1 x2 x3 (ix2 n o)
      = (∑ d : Fin 256, x0 (ix2 n d) * x3 (ix2 o (lo d)))
        + ∑ k : Fin 2048, radial x0 x1 x2 n k * x3 (ix2 o (hi k)) := by
  rw [val_main_v20_apply]
  simp only [val_main_v19_apply, ix_outl, ix_outr]
  rw [sum_split]
  simp only [joined_lo, joined_hi]

/-! ### The reference's output -/

/-- The reference program's result is the layer's output. -/
theorem ref_eq (x0 : FVec Ideal S16384x256 .f32) (x1 : FVec Ideal S2048x256 .f32) (x2 : FVec Ideal S1x2048 .f32)
    (x3 : FVec Ideal S64x2304 .f32) (x4 : FVec Ideal S64 .f32) :
    Cert.ReferenceIdeal.Read.val_main_v23 (F := Ideal) x0 x1 x2 x3 x4 = Cert.Rbf.refOut x0 x1 x2 x3 x4 := by
  funext i
  obtain ⟨n, o, rfl⟩ : ∃ (n : Fin 16384) (o : Fin 64), i = ix2 n o := ⟨i 0, i 1, eq_ix2 i⟩
  rw [refOut_apply, val_main_v23_apply, val_main_v22_apply, val_main_v21_apply, joined_sum, ix_bias]
  rfl

end Cert.Rbf.RefSide

end
-- ==== Proof.lean ====
/-
  The certificate: a tiled radial-basis layer against its plain definition, on the extended reals.

  Both programs compute `out(n, o) = ∑ d, X(n, d) · W(o, d) + ∑ k, Φ(n, k) · W(o, 256 + k) + b o` with
  `Φ(n, k) = exp (-β k · ((‖X n‖² + ‖C k‖²) - 2 · ⟨X n, C k⟩))`. The tiled program walks an 8 × 4 grid: along a row it
  accumulates the radial part in four chunks of 512 centres and, at the row's last point, adds the linear part and the
  bias; it works on 128 padded lanes and keeps the first 64. The plain program contracts the 2304 joined features at
  once. The two results agree because a finite sum of extended reals may be split and regrouped, `0 - β = -β`, and a
  change of float format is the identity there; the inputs' finiteness is not used.

  The three frames are the generated ones (the reference's is its generated run with the result dropped); the
  idealization rewrote nothing.
-/
import proofs.«167581_j16819091931602_2_alg».proof.Defs
import proofs.«167581_j16819091931602_2_alg».proof.Proof.Gen.Kernel
import proofs.«167581_j16819091931602_2_alg».proof.Proof.Gen.Kernel.Skeleton
import proofs.«167581_j16819091931602_2_alg».proof.Proof.Gen.Kernel.Launch
import proofs.«167581_j16819091931602_2_alg».proof.Proof.Gen.Kernel.Points
import proofs.«167581_j16819091931602_2_alg».proof.Proof.Gen.Kernel.Frame
import proofs.«167581_j16819091931602_2_alg».proof.Proof.Gen.KernelIdeal
import proofs.«167581_j16819091931602_2_alg».proof.Proof.Gen.KernelIdeal.Skeleton
import proofs.«167581_j16819091931602_2_alg».proof.Proof.Gen.KernelIdeal.Launch
import proofs.«167581_j16819091931602_2_alg».proof.Proof.Gen.KernelIdeal.Points
import proofs.«167581_j16819091931602_2_alg».proof.Proof.Gen.KernelIdeal.Frame
import proofs.«167581_j16819091931602_2_alg».proof.Proof.Gen.ReferenceIdeal
import proofs.«167581_j16819091931602_2_alg».proof.Proof.Gen.ReferenceIdeal.Run
import proofs.«167581_j16819091931602_2_alg».proof.Proof.Gen.ReferenceIdeal.Read
import proofs.«167581_j16819091931602_2_alg».proof.Proof.Gen.Pre_finite_inputs
import proofs.«167581_j16819091931602_2_alg».proof.Proof.Result
import proofs.«167581_j16819091931602_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the layer's output of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.Rbf.RefSide.ref_eq, (hagree c).1, (hagree c).2.1,
    (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
